-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S4096x512 : Shape := ⟨2, ![4096, 512]⟩
abbrev S_ : Shape := ⟨0, ![]⟩
abbrev S4096 : Shape := ⟨1, ![4096]⟩
abbrev S1x4096 : Shape := ⟨2, ![1, 4096]⟩
abbrev S16384x4096 : Shape := ⟨2, ![16384, 4096]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S4096x512, .bf16⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S16384x4096, .f32⟩
  | .local _ .vmem, ⟨0, _⟩ => ⟨S256x512, .f32⟩
  | .local _ .vmem, ⟨1, _⟩ => ⟨S256x512, .f32⟩
  | .local _ .vmem, ⟨2, _⟩ => ⟨S4096x512, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S4096x512_S4096_d1 : S4096x512.ReducesTo [1] S4096
  h_S_ : 0 < S_.numel
  bcast_S4096_S1x4096_1 : S4096.BroadcastsInDim S1x4096 (![1] : Fin 1 → Fin S1x4096.rank)
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x512_S4096x512_S16384x4096_1_1_0_0_n_n_wf : DotDims.WF S16384x512 S4096x512 S16384x4096 [1] [1] [0] [0] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.LibColumnReads.lean ====
/-
  Column and row reads of small layout operations, over arbitrary extents.

  A column `[a, 1]` broadcast along the second axis reads, at `(p, c)`, the column's entry `p`; a vector of length
  `a` reshaped to a column `[a, 1]` reads, at `(p, 0)`, the vector's entry `p`; a vector made a column by the host's
  broadcast along axis 0 reads the same; and a `[a, 1]` column broadcast by the host to `[a, b]` reads the column's
  entry of the same row.
-/
import Idealize.ShloMosaic.Lib.Pipeline.Value
import Idealize.ShloMosaic.Lib.ValueIdx
import Idealize.ShloMosaic.Lib.ValueLayout

noncomputable section

namespace Cert.Lib.ColumnReads

open Idealize.ShloMosaic Idealize.ShloMosaic.ValueIdx

variable {α : Type}

/-- A `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along both axes reads, at `(p, c)`, the column at row `p`. -/
theorem col_broadcastInDim_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun d => by
    match d with
    | ⟨0, _⟩ =>
      show p.val = if a = 1 then 0 else p.val
      split
      · have := p.isLt; omega
      · rfl
    | ⟨1, _⟩ => rfl

/-- A vector made a `[a, 1]` column by the host's broadcast along axis 0 reads, at `(p, 0)`, the vector at `p`. -/
theorem vec_as_col_apply {a : ℕ} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v _ _ fun d => by
    match d with
    | ⟨0, _⟩ =>
      show p.val = if a = 1 then 0 else p.val
      split
      · have := p.isLt; omega
      · rfl

/-- A vector reshaped to a `[a, 1]` column reads, at `(p, 0)`, the vector at `p`. -/
theorem reshape_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ (ix1 p) (by
    rw [Shape.rowMajor_val_one, Shape.rowMajor_val_two]
    show p.val = p.val * 1 + 0
    omega)

end Cert.Lib.ColumnReads

end
-- ==== Proof.LibRbfLayer.lean ====
/-
  The Gaussian radial-basis layer over arbitrary extents, as one whole-array function.

  For a batch `x` of `B` rows and a table `w` of `C` centres, both of width `D`, the layer's entry `(p, q)` is
  `exp (s · ((‖x_p‖² − 2 · (x_p · w_q)) + ‖w_q‖²))` for a scale `s` (the negated width parameter), the squared distance
  written through the expansion `‖x − w‖² = ‖x‖² − 2 x·w + ‖w‖²` with every norm and inner product a sum over the
  `D` coordinates (`rbf`).

  A program may fold the factor two into the left operand of the inner product, summing `(x + x) · w` instead of doubling
  the sum. On the extended reals `a + a = 2 · a` at every value, multiplication is associative, and a non-negative
  finite factor distributes over every sum (infinite terms included), so `∑ (a k + a k) · c k = 2 · ∑ a k · c k` with
  no finiteness assumption (`sum_double_mul`). A row of the layer depends only on the same row of `x` (`rbf_rows`).
-/
import Idealize.ShloMosaic.PureOps.Ideal
import Idealize.ShloMosaic.PureOps.Ideal.Laws
import Idealize.ShloMosaic.Lib.ValueIdx

noncomputable section

open scoped BigOperators

namespace Cert.Lib.RbfLayer

open Idealize.ShloMosaic Idealize.ShloMosaic.ValueIdx

/-! ## Doubling on the extended reals -/

/-- The f32 word of `2.0` denotes the extended real `2`. -/
theorem ofBits_two : Ideal.ofBits .f32 0x40000000#32 = 2 := by
  simp [Ideal.ofBits, Ideal.ieee, -EReal.coe_mul]
  norm_num
  rfl

/-- An extended real added to itself is twice it: at the infinities both sides are the same infinity. -/
theorem add_self_eq_two_mul (a : EReal) : a + a = 2 * a := by
  induction a using EReal.rec with
  | bot => rw [EReal.bot_add, EReal.mul_bot_of_pos (by norm_num)]
  | top => rw [EReal.top_add_top, EReal.mul_top_of_pos (by norm_num)]
  | coe r => rw [← EReal.coe_add, show (2 : EReal) = ((2 : ℝ) : EReal) from rfl, ← EReal.coe_mul, two_mul]

/-- Doubling distributes over a finite sum of extended reals, whatever the terms. -/
theorem two_mul_sum {ι : Type*} (s : Finset ι) (f : ι → EReal) : (2 : EReal) * ∑ k ∈ s, f k = ∑ k ∈ s, 2 * f k := by
  classical
  induction s using Finset.induction_on with
  | empty => simp
  | insert a s ha ih =>
    rw [Finset.sum_insert ha, Finset.sum_insert ha,
      EReal.left_distrib_of_nonneg_of_ne_top (x := 2) (by norm_num) (EReal.coe_ne_top 2), ih]

/-- The inner product with the left operand doubled entry by entry is twice the inner product. -/
theorem sum_double_mul {ι : Type*} [Fintype ι] (a c : ι → EReal) :
    ∑ k, (a k + a k) * c k = 2 * ∑ k, a k * c k := by
  rw [two_mul_sum]
  exact Finset.sum_congr rfl fun k _ => by rw [add_self_eq_two_mul, mul_assoc]

/-! ## The layer -/

/-- The scale of a layer of unit width: the f32 word of `-1.0`, kept as the word (both programs spell the same one). -/
abbrev unitScale : EReal := Ideal.ofBits .f32 0xBF800000#32

/-- A `a × b` matrix of extended reals, indexed as the programs index a rank-2 array. -/
abbrev Mat (a b : ℕ) : Type := (⟨2, ![a, b]⟩ : Shape).Idx → EReal

/-- The squared norm of row `p`. -/
def rowSq {A D : ℕ} (x : Mat A D) (p : Fin A) : EReal := ∑ k : Fin D, x (ix2 p k) * x (ix2 p k)

/-- The inner product of row `p` of `x` with row `q` of `w`. -/
def rowDot {A C D : ℕ} (x : Mat A D) (w : Mat C D) (p : Fin A) (q : Fin C) : EReal :=
  ∑ k : Fin D, x (ix2 p k) * w (ix2 q k)

/-- The layer's entry from a row's squared norm, the inner product and a centre's squared norm. -/
def rbfEntry (s nx d nw : EReal) : EReal := Ideal.exp (s * ((nx - 2 * d) + nw))

/-- The radial-basis layer with scale `s`: entry `(p, q)` is `exp (s · ((‖x_p‖² − 2 · (x_p · w_q)) + ‖w_q‖²))`. -/
def rbf {B C D : ℕ} (s : EReal) (x : Mat B D) (w : Mat C D) : Mat B C :=
  fun i => rbfEntry s (rowSq x (i 0)) (rowDot x w (i 0) (i 1)) (rowSq w (i 1))

theorem rbf_apply {B C D : ℕ} (s : EReal) (x : Mat B D) (w : Mat C D) (p : Fin B) (q : Fin C) :
    rbf s x w (ix2 p q) = rbfEntry s (rowSq x p) (rowDot x w p q) (rowSq w q) := rfl

/-- A row of the layer depends only on the same row of the batch. -/
theorem rbf_rows {B B' C D : ℕ} (s : EReal) (x : Mat B D) (x' : Mat B' D) (w : Mat C D) (p : Fin B) (p' : Fin B')
    (q : Fin C) (hx : ∀ k : Fin D, x (ix2 p k) = x' (ix2 p' k)) :
    rbf s x w (ix2 p q) = rbf s x' w (ix2 p' q) := by
  rw [rbf_apply, rbf_apply]
  unfold rowSq rowDot
  simp only [hx]

end Cert.Lib.RbfLayer

end
-- ==== Proof.KernelEntry.lean ====
/-
  One entry of the block the kernel body stores.

  The body loads a `256 × 512` block `x` of the batch, the whole `4096 × 512` table `w` of centres and a `1 × 4096` row
  `r` (the centres' squared norms), and stores `exp (s · ((‖x_p‖² − (x_p + x_p) · w_q) + r_q))` at `(p, q)`: the row norm
  is a lane sum kept as a column and broadcast along the row, the inner product a matrix product into a zero
  accumulator with the doubled block as its left operand (the change of float format on the way in is the identity
  on the extended reals), and the row of centre norms is broadcast down the rows.
-/
import proofs.«147525_j65481071399933_2_alg».proof.Proof.Gen.KernelIdeal.Skeleton
import proofs.«147525_j65481071399933_2_alg».proof.Proof.LibColumnReads
import proofs.«147525_j65481071399933_2_alg».proof.Proof.LibRbfLayer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- A lane sum kept as a column and broadcast along the rows reads, at `(p, q)`, the sum of row `p`. -/
theorem rowSum_col_apply (v : FVec Ideal S256x512 .f32) (hr : S256x512.Reduces [1] S256) (hφ : FKind.Formats .f32)
    (hacc : (0x00000000#32 : BitVec 32) = FKind.add.neutral .f32 hφ) (hc : S256.ShapeCasts S256x1)
    (hb : S256x1.Broadcasts S256x4096) (p : Fin 256) (q : Fin 4096) :
    broadcastTo S256x4096 (shapeCast S256x1 (multiReduction .add [1] S256 v 0x00000000#32 hr hφ hacc) hc) hb (ix2 p q)
      = ∑ k : Fin 512, v (ix2 p k) :=
  (Cert.Lib.ColumnReads.broadcastTo_a1_ab_apply _ hb p q).trans
    ((Cert.Lib.ColumnReads.reshape_col_apply _ hc p).trans
      ((Ideal.multiReduction_add_single v _ hr hφ hacc (ix1 p)).trans
        (Finset.sum_congr rfl fun k _ => congrArg v (funext fun a => Fin.ext (by
          match a with
          | ⟨0, _⟩ => rfl
          | ⟨1, _⟩ => rfl)))))

theorem lhs_row (i : S256x4096.Idx) (k : dot_S256x512_S4096x512_S256x4096_1_1_0_0_n_n.contr.Idx) :
    (dot_S256x512_S4096x512_S256x4096_1_1_0_0_n_n.lhsIdx i k 0).val = (i 0).val := by
  unfold DotDims.lhsIdx
  rw [dif_neg (show ¬(0 : Fin S256x512.rank) ∈ dot_S256x512_S4096x512_S256x4096_1_1_0_0_n_n.lhsBatch by decide),
    dif_pos (show (0 : Fin S256x512.rank) ∈ dot_S256x512_S4096x512_S256x4096_1_1_0_0_n_n.lhsNonContracting by decide)]
  rfl

theorem rhs_row (i : S256x4096.Idx) (k : dot_S256x512_S4096x512_S256x4096_1_1_0_0_n_n.contr.Idx) :
    (dot_S256x512_S4096x512_S256x4096_1_1_0_0_n_n.rhsIdx i k 0).val = (i 1).val := by
  unfold DotDims.rhsIdx
  rw [dif_neg (show ¬(0 : Fin S4096x512.rank) ∈ dot_S256x512_S4096x512_S256x4096_1_1_0_0_n_n.rhsBatch by decide),
    dif_pos (show (0 : Fin S4096x512.rank) ∈ dot_S256x512_S4096x512_S256x4096_1_1_0_0_n_n.rhsNonContracting by decide)]
  rfl

/-- The matrix product of the block with the table, both contracted along their feature axis, into a zero
    accumulator reads, at `(p, q)`, the inner product of row `p` of the left operand with row `q` of the right. -/
theorem product_apply (l : FVec Ideal S256x512 .bf16) (r : FVec Ideal S4096x512 .bf16) (p : Fin 256) (q : Fin 4096) :
    FloatOps.matmul dot_S256x512_S4096x512_S256x4096_1_1_0_0_n_n none l r (constant S256x4096 .f32 0x00000000#32) (ix2 p q)
      = ∑ k : Fin 512, l (ix2 p k) * r (ix2 q k) := by
  rw [Ideal.matmul_constant_zero_apply,
    ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 p q)
      ((contrEquiv1 dot_S256x512_S4096x512_S256x4096_1_1_0_0_n_n 512 rfl rfl).symm k) = ix2 p k :=
    funext fun a => Fin.ext (by
      match a with
      | ⟨0, _⟩ => exact lhs_row _ _
      | ⟨1, _⟩ => exact (dot_S256x512_S4096x512_S256x4096_1_1_0_0_n_n.lhsIdx_val_of_single rfl _ _).trans hk)
  have er : dot_S256x512_S4096x512_S256x4096_1_1_0_0_n_n.rhsIdx (ix2 p q)
      ((contrEquiv1 dot_S256x512_S4096x512_S256x4096_1_1_0_0_n_n 512 rfl rfl).symm k) = ix2 q k :=
    funext fun a => Fin.ext (by
      match a with
      | ⟨0, _⟩ => exact rhs_row _ _
      | ⟨1, _⟩ => exact (dot_S256x512_S4096x512_S256x4096_1_1_0_0_n_n.rhsIdx_val_of_single rfl _ _).trans hk)
  rw [el, er]

/-- The same with the table passed through a shape cast to its own shape. -/
theorem product_cast_apply (l : FVec Ideal S256x512 .bf16) (r : FVec Ideal S4096x512 .bf16) (hc : S4096x512.ShapeCasts S4096x512)
    (p : Fin 256) (q : Fin 4096) :
    FloatOps.matmul dot_S256x512_S4096x512_S256x4096_1_1_0_0_n_n none l (shapeCast S4096x512 r hc)
        (constant S256x4096 .f32 0x00000000#32) (ix2 p q)
      = ∑ k : Fin 512, l (ix2 p k) * r (ix2 q k) := by
  rw [shapeCast_self]
  exact product_apply l r p q

/-- A `1 × 4096` row, cast to its own shape and broadcast down the rows, reads at `(p, q)` the row's entry `q`. -/
theorem row_bcast_apply (r : FVec Ideal S1x4096 .f32) (hc : S1x4096.ShapeCasts S1x4096) (hb : S1x4096.Broadcasts S256x4096)
    (p : Fin 256) (q : Fin 4096) :
    broadcastTo S256x4096 (shapeCast S1x4096 r hc) hb (ix2 p q) = r (ix2 (0 : Fin 1) q) := by
  rw [shapeCast_self]
  exact broadcastTo_1b_ab_apply r hb p q

/-- THE STORED ENTRY: at `(p, q)` the body's payload is `exp (s · ((∑ x_pk² − ∑ (x_pk + x_pk) · w_qk) + r_q))`, `s` the word of `-1.0`. -/
theorem pay_apply (x : FVec Ideal S256x512 .f32) (w : FVec Ideal S4096x512 .bf16) (r : FVec Ideal S1x4096 .f32)
    (p : Fin 256) (q : Fin 4096) :
    k0_pay1 (F := Ideal) x w r (ix2 p q)
      = Ideal.exp (Ideal.ofBits .f32 0xBF800000#32 *
          (((∑ k : Fin 512, x (ix2 p k) * x (ix2 p k)) - ∑ k : Fin 512, (x (ix2 p k) + x (ix2 p k)) * w (ix2 q k))
            + r (ix2 (0 : Fin 1) q))) := by
  unfold k0_pay1
  exact congrArg (fun z => Ideal.exp (Ideal.ofBits .f32 0xBF800000#32 * z))
    (congrArg₂ (· + ·)
      (congrArg₂ (· - ·) (rowSum_col_apply (mulf x x) _ _ _ _ _ p q)
        (product_cast_apply (truncf .bf16 (addf x x) bitsLt_bf16_f32) w _ p q))
      (row_bcast_apply r _ _ p q))

/-- THE STORED ENTRY IS THE LAYER'S: when row `p` of the block is row `P` of a batch `a`, the table holds the centres `b` and the
    row holds `0 + ‖b_q‖²` (the host's sum from the zero word), the payload at `(p, q)` is the layer's entry `(P, q)`: the
    doubled left operand gives twice the inner product. -/
theorem pay_eq_layer (x : FVec Ideal S256x512 .f32) (w : FVec Ideal S4096x512 .bf16) (r : FVec Ideal S1x4096 .f32)
    (a : Cert.Lib.RbfLayer.Mat 16384 512) (b : Cert.Lib.RbfLayer.Mat 4096 512) (p : Fin 256) (q : Fin 4096) (P : Fin 16384)
    (hx : ∀ k : Fin 512, x (ix2 p k) = a (ix2 P k)) (hw : ∀ k : Fin 512, w (ix2 q k) = b (ix2 q k))
    (hr : r (ix2 (0 : Fin 1) q) = Ideal.ofBits .f32 0x00000000#32 + ∑ k : Fin 512, b (ix2 q k) * b (ix2 q k)) :
    k0_pay1 (F := Ideal) x w r (ix2 p q) = Cert.Lib.RbfLayer.rbf Cert.Lib.RbfLayer.unitScale a b (ix2 P q) := by
  rw [pay_apply, Cert.Lib.RbfLayer.rbf_apply]
  unfold Cert.Lib.RbfLayer.rbfEntry Cert.Lib.RbfLayer.rowSq Cert.Lib.RbfLayer.rowDot
  simp only [hx, hw, hr]
  rw [Cert.Lib.RbfLayer.sum_double_mul, Ideal.ofBits_zero_f32, zero_add]

end Cert.KernelIdeal.Entry

end
-- ==== Proof.HostPrefix.lean ====
/-
  What the region finds in the two arrays the host prepared.

  Before the kernel is launched the host narrows the float format of the table of centres (the identity on the
  extended reals) and sums the squares of each centre's entries into a `1 × 4096` row. So the table the kernel stages
  holds the centres themselves, and entry `q` of the row is `0 + ∑ k, w (q, k)²`, the initial value of the host's sum
  being the word of `0.0`.
-/
import proofs.«147525_j65481071399933_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Prefix

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The row of squared norms as the host computes it from the centres. -/
def normRow (w : FVec Ideal S4096x512 .f32) : FVec Ideal S1x4096 .f32 :=
  broadcastInDim S1x4096 ![1] bcast_S4096_S1x4096_1
    (Host.reduceAdd (F := Ideal) (mulf w w) (constant (F := Ideal) S_ .f32 0x00000000#32) reducesTo_S4096x512_S4096_d1 h_S_)

/-- Entry `q` of that row is the initial value plus the sum of the squares of centre `q`'s entries. -/
theorem normRow_apply (w : FVec Ideal S4096x512 .f32) (q : Fin 4096) :
    normRow w (ix2 (0 : Fin 1) q) = Ideal.ofBits .f32 0x00000000#32 + ∑ k : Fin 512, w (ix2 q k) * w (ix2 q k) := by
  unfold normRow
  refine (broadcastInDim_apply _ bcast_S4096_S1x4096_1 _ (ix2 (0 : Fin 1) q) (ix1 q) (fun a => by
    match a with
    | ⟨0, _⟩ => show q.val = if (4096 : Nat) = 1 then 0 else q.val; rw [if_neg (by decide)])).trans ?_
  simp only [Host.reduceAdd, Ideal.hostReduceAdd_def]
  rw [Ideal.hostReduceAdd_single reducesTo_S4096x512_S4096_d1 (by decide)]
  refine congrArg (_ + ·) (Finset.sum_congr rfl fun k _ => ?_)
  exact congrArg (mulf w w) (funext fun a => Fin.ext (by
    match a with
    | ⟨0, _⟩ => rfl
    | ⟨1, _⟩ => rfl))

/-- The table the kernel stages holds the centres, their float format narrowed. -/
theorem table_eq (c : Dev nD) :
    (V m c main_v0 : S4096x512.Idx → EReal)
      = truncf (F := Ideal) .bf16 (m ((c : Thread nD τ).loc main_arg1) : FVec Ideal S4096x512 .f32) bitsLt_bf16_f32 := by
  dsimp only [Gen.V, Gen.hostOps0]; after_results

/-- The row the kernel stages is the host's row of squared norms of the centres. -/
theorem row_eq (c : Dev nD) :
    (V m c main_v3 : S1x4096.Idx → EReal) = normRow (m ((c : Thread nD τ).loc main_arg1)) := by
  dsimp only [Gen.V, Gen.hostOps0]; after_results; rfl

end Cert.KernelIdeal.Prefix

end
-- ==== Proof.KernelLayer.lean ====
/-
  The kernel's result array is the radial-basis layer of the batch and the centres.

  The grid has 64 points; point `t` stages rows `256 t … 256 t + 255` of the batch, the whole table of centres and the
  whole row of their squared norms, and writes back rows `256 t … 256 t + 255` of the result. Entry `(p, q)` of what it
  writes is the layer's entry `(256 t + p, q)`, so every write-back is a block of one whole-array function, and the 64
  blocks cover the result array: row `r` lies in the block of point `r / 256`.
-/
import proofs.«147525_j65481071399933_2_alg».proof.Proof.Gen.KernelIdeal.Value
import proofs.«147525_j65481071399933_2_alg».proof.Proof.KernelEntry
import proofs.«147525_j65481071399933_2_alg».proof.Proof.HostPrefix
import proofs.«147525_j65481071399933_2_alg».proof.Proof.LibRbfLayer
import Idealize.ShloMosaic.Lib.Pipeline.Value

noncomputable section

open scoped BigOperators

namespace Cert.KernelIdeal.Layer

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Lib.RbfLayer

variable (m : (ℓ : Loc nD τ sig) → Buf (Elt Ideal) ℓ) (ρ : Dev nD → PrngReg)

theorem hz : (![0, 0] : Fin 2 → Nat) = fun _ => 0 := funext fun a => by fin_cases a <;> rfl

/-- The layer of the batch and the centres as launched: what the result array ends holding. -/
abbrev result (c : Dev nD) : Buf (Elt Ideal) ((c : Thread nD τ).loc main_v4) :=
  rbf unitScale (m ((c : Thread nD τ).loc main_arg0)) (m ((c : Thread nD τ).loc main_arg1))

/-- The printed index maps, decided over the grid: the batch and result windows move down with the point, the table
    and the row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row `p` of the batch block at point `t` is row `256 t + p` of the batch. -/
theorem batch_blk (c : Dev nD) (t : Fin cfg0.N) (p : Fin 256) (k : Fin 512) (P : Fin 16384) (hP : P.val = 256 * t.val + p.val) :
    (iblk m c 0 t : FVec Ideal S256x512 .f32) (ix2 p k)
      = (m ((c : Thread nD τ).loc main_arg0) : S16384x512.Idx → EReal) (ix2 P k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = P.val; rw [e0, hP]; omega
  | ⟨1, _⟩ => show win0_0.index t (1 : Fin 2) * 512 + 1 * k.val = k.val; rw [e1]; omega

/-- The table block at every point is the table: the centres. -/
theorem table_blk (c : Dev nD) (t : Fin cfg0.N) (q : Fin 4096) (k : Fin 512) :
    (iblk m c 1 t : FVec Ideal S4096x512 .bf16) (ix2 q k)
      = (m ((c : Thread nD τ).loc main_arg1) : S4096x512.Idx → EReal) (ix2 q k) := by
  obtain ⟨-, -, e2, e3, -⟩ := idx_facts t
  unfold iblk
  rw [View.read_apply]
  show V m c main_v0 _ = _
  rw [Prefix.table_eq]
  show (m ((c : Thread nD τ).loc main_arg1) : S4096x512.Idx → EReal) _ = _
  refine congrArg _ (funext fun a => Fin.ext ?_)
  match a with
  | ⟨0, _⟩ => show win0_1.index t (0 : Fin 2) * 4096 + 1 * q.val = q.val; rw [e2]; omega
  | ⟨1, _⟩ => show win0_1.index t (1 : Fin 2) * 512 + 1 * k.val = k.val; rw [e3]; omega

/-- The row block at every point is the host's row of the centres' squared norms. -/
theorem row_blk (c : Dev nD) (t : Fin cfg0.N) (q : Fin 4096) :
    (iblk m c 2 t : FVec Ideal S1x4096 .f32) (ix2 (0 : Fin 1) q)
      = Prefix.normRow (m ((c : Thread nD τ).loc main_arg1)) (ix2 (0 : Fin 1) q) := by
  obtain ⟨-, -, -, -, e4, e5, -⟩ := idx_facts t
  unfold iblk
  rw [View.read_apply]
  show V m c main_v3 _ = _
  rw [Prefix.row_eq]
  refine congrArg _ (funext fun a => Fin.ext ?_)
  match a with
  | ⟨0, _⟩ => show win0_2.index t (0 : Fin 2) * 1 + 1 * 0 = 0; rw [e4]
  | ⟨1, _⟩ => show win0_2.index t (1 : Fin 2) * 4096 + 1 * q.val = q.val; rw [e5]; omega

/-- WHAT POINT `t` WRITES BACK is block `t` of the layer. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S256x512) hz, View.ld_unit_zero (S := S4096x512) hz, View.ld_unit_zero (S := S1x4096) hz]
  obtain ⟨-, -, -, -, -, -, e6, e7⟩ := idx_facts t
  have ht := point_lt t
  funext j
  obtain ⟨p, q, rfl⟩ : ∃ (p : Fin 256) (q : Fin 4096), j = ix2 p q := ⟨j 0, j 1, eq_ix2 j⟩
  have hP : 256 * t.val + p.val < 16384 := by have := p.isLt; omega
  show k0_pay1 (F := Ideal) (iblk m c 0 t) (iblk m c 1 t) (iblk m c 2 t) (ix2 p q)
    = result m c (((cfg0.win 3).blk t).view.emb (ix2 p q))
  have hemb : ((cfg0.win 3).blk t).view.emb (ix2 p q) = ix2 (⟨256 * t.val + p.val, hP⟩ : Fin 16384) q := by
    funext a; apply Fin.ext
    match a with
    | ⟨0, _⟩ => show win0_3.index t (0 : Fin 2) * 256 + 1 * p.val = 256 * t.val + p.val; rw [e6]; omega
    | ⟨1, _⟩ => show win0_3.index t (1 : Fin 2) * 4096 + 1 * q.val = q.val; rw [e7]; omega
  rw [hemb]
  exact Entry.pay_eq_layer (iblk m c 0 t) (iblk m c 1 t) (iblk m c 2 t) _ _ p q ⟨256 * t.val + p.val, hP⟩
    (fun k => batch_blk m c t p k _ rfl) (table_blk m c t q)
    ((row_blk m c t q).trans (Prefix.normRow_apply _ q))

/-- An index of the result array is in point `t`'s block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v4).slice (win0_3.rect t)).set ↔ _
  rw [View.set_slice_whole, Rect.mem_set_unit]
  exact Iff.rfl

/-- The 64 blocks cover the result array: row `r` is in the block of point `r / 256`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 64 := N_0
  obtain ⟨t, htv⟩ : ∃ t : Fin cfg0.N, t.val = (i 0).val / 256 := ⟨⟨(i 0).val / 256, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e6, htv]; omega
  | ⟨1, _⟩ =>
    show win0_3.index t (1 : Fin 2) * 4096 ≤ (i 1).val ∧ (i 1).val < win0_3.index t (1 : Fin 2) * 4096 + 4096
    rw [e7]; omega

/-- THE RESULT ARRAY after the run is the layer of the batch and the centres as launched. -/
theorem final (c : Dev nD) : (dats m 0 c).arrAt 3 cfg0.N = result m c :=
  (dats m 0 c).arrAt_eq_of_cover 3 (result m c) (fun t _ => flushed_eq m c t) cover

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Layer

end
-- ==== Proof.RefLayer.lean ====
/-
  The reference computes the radial-basis layer.

  Read one operation at a time, the reference's result at `(p, q)` is
  `exp (s · (((0 + ∑ x_pk²) − 2 · ∑ x_pk · w_qk) + (0 + ∑ w_qk²)))`: the two host sums start from the word of `0.0`, which
  denotes `0`, the factor is the word of `2.0`, which denotes `2`, and the scale `s` is the word of `-1.0`, kept as it is.
-/
import proofs.«147525_j65481071399933_2_alg».proof.Proof.Gen.ReferenceIdeal.Read
import proofs.«147525_j65481071399933_2_alg».proof.Proof.LibRbfLayer

noncomputable section

open scoped BigOperators

namespace Cert.ReferenceIdeal.Layer

open Cert.ReferenceIdeal Cert.ReferenceIdeal.Gen Cert.ReferenceIdeal.Read Idealize.ShloMosaic Idealize.ShloMosaic.ValueIdx
open Cert.Lib.RbfLayer

/-- The reference's last stage is the radial-basis layer of the batch and the centres. -/
theorem result_eq (x : FVec Ideal S16384x512 .f32) (w : FVec Ideal S4096x512 .f32) :
    val_main_v15 (F := Ideal) x w = rbf unitScale x w := by
  funext i
  obtain ⟨p, q, rfl⟩ : ∃ (p : Fin 16384) (q : Fin 4096), i = ix2 p q := ⟨i 0, i 1, eq_ix2 i⟩
  have e1 : ∀ k : Fin 512, idx_main_v1 (idx_main_v2 (idx_main_v8 (ix2 p q))) k = ix2 p k := fun k =>
    funext fun a => Fin.ext (by match a with | ⟨0, _⟩ => rfl | ⟨1, _⟩ => rfl)
  have e4 : ∀ k : Fin 512, idx_main_v4 (idx_main_v10 (idx_main_v11 (ix2 p q))) k = ix2 q k := fun k =>
    funext fun a => Fin.ext (by match a with | ⟨0, _⟩ => rfl | ⟨1, _⟩ => rfl)
  have el : ∀ k : Fin 512, lidx_main_v5 (ix2 p q) k = ix2 p k := fun k =>
    funext fun a => Fin.ext (by match a with | ⟨0, _⟩ => rfl | ⟨1, _⟩ => rfl)
  have er : ∀ k : Fin 512, ridx_main_v5 (ix2 p q) k = ix2 q k := fun k =>
    funext fun a => Fin.ext (by match a with | ⟨0, _⟩ => rfl | ⟨1, _⟩ => rfl)
  rw [val_main_v15_apply, val_main_v14_apply, val_main_v13_apply, val_main_cst_2_apply, val_main_v12_apply,
    val_main_v9_apply, val_main_v8_apply, val_main_v2_apply, val_main_v1_apply, val_main_v7_apply, val_main_v6_apply,
    val_main_cst_1_apply, val_main_v5_apply, val_main_v11_apply, val_main_v10_apply, val_main_v4_apply,
    val_main_cst_apply, val_main_cst_0_apply]
  simp only [val_main_v0_apply, val_main_v3_apply, e1, e4, el, er, Ideal.hostUnary_exp_def, Ideal.mulf_def, Ideal.addf_def,
    Ideal.subf_def, Ideal.ofBits_def, Ideal.ofBits_zero_f32, zero_add, ofBits_two]
  rfl

end Cert.ReferenceIdeal.Layer

end
-- ==== Proof.lean ====
/-
  The kernel and its reference compute one function on the extended reals: the Gaussian radial-basis layer
  `out (p, q) = exp (-(‖x_p‖² − 2 · (x_p · w_q) + ‖w_q‖²))` of a batch `x` (16384 rows) and a table `w` of 4096 centres,
  both of width 512, the squared distance written through its expansion.

  The reference forms the two families of squared norms and the matrix of inner products on the host and doubles the
  inner products. The kernel has the host prepare the row of centre norms, then works through the batch 256 rows at a
  time: it sums the squares of each staged row, multiplies the DOUBLED block by the whole table on the matrix unit (the
  narrowing of the float format on the way in is the identity on the extended reals), and combines the three terms as
  the reference does. Summing `(x + x) · w` is twice summing `x · w` at every extended real, the infinities included,
  so the two results agree entry by entry with no use of the inputs' finiteness.

  The three programs' runs and unchanged arguments come from the generated frame and run modules; the idealization
  rewrote no operation, so that conjunct is trivial.
-/
import proofs.«147525_j65481071399933_2_alg».proof.Defs
import proofs.«147525_j65481071399933_2_alg».proof.Proof.Gen.Kernel
import proofs.«147525_j65481071399933_2_alg».proof.Proof.Gen.Kernel.Skeleton
import proofs.«147525_j65481071399933_2_alg».proof.Proof.Gen.Kernel.Launch
import proofs.«147525_j65481071399933_2_alg».proof.Proof.Gen.Kernel.Points
import proofs.«147525_j65481071399933_2_alg».proof.Proof.Gen.Kernel.Frame
import proofs.«147525_j65481071399933_2_alg».proof.Proof.Gen.KernelIdeal
import proofs.«147525_j65481071399933_2_alg».proof.Proof.Gen.KernelIdeal.Skeleton
import proofs.«147525_j65481071399933_2_alg».proof.Proof.Gen.KernelIdeal.Launch
import proofs.«147525_j65481071399933_2_alg».proof.Proof.Gen.KernelIdeal.Points
import proofs.«147525_j65481071399933_2_alg».proof.Proof.Gen.KernelIdeal.Frame
import proofs.«147525_j65481071399933_2_alg».proof.Proof.Gen.ReferenceIdeal
import proofs.«147525_j65481071399933_2_alg».proof.Proof.Gen.KernelIdeal.Value
import proofs.«147525_j65481071399933_2_alg».proof.Proof.Gen.ReferenceIdeal.Run
import proofs.«147525_j65481071399933_2_alg».proof.Proof.Gen.ReferenceIdeal.Read
import proofs.«147525_j65481071399933_2_alg».proof.Proof.Gen.Pre_finite_inputs
import proofs.«147525_j65481071399933_2_alg».proof.Proof.KernelLayer
import proofs.«147525_j65481071399933_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the batch and the centres, the kernel's result array and the reference's result both
    end at the radial-basis layer of them. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Layer.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
